-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The affine map that both programs compute, written once as a function of the three argument arrays.

  The input is an 8192 × 4096 matrix, the weight a 4096 × 4096 matrix and the bias a vector of 4096 entries, all over
  the extended reals. Entry (r, o) of the result is the inner product of row r of the input with row o of the weight
  (both matrices are contracted along their SECOND axis, so the weight enters transposed), plus entry o of the bias.
  The finite sum is taken in the commutative monoid of the extended reals, so no order of summation is part of the
  definition.
-/
import Idealize.ShloMosaic.PureOps.Ideal
import Idealize.ShloMosaic.Lib.ValueIdx

noncomputable section

open scoped BigOperators

namespace Cert.Linear

open Idealize.ShloMosaic Idealize.ShloMosaic.ValueIdx

/-- Entry `(r, o)` of the affine map: `∑ₖ X(r, k) · W(o, k) + b(o)`. -/
def affineAt (X : (⟨2, ![8192, 4096]⟩ : Shape).Idx → EReal) (W : (⟨2, ![4096, 4096]⟩ : Shape).Idx → EReal)
    (b : (⟨1, ![4096]⟩ : Shape).Idx → EReal) (r : Fin 8192) (o : Fin 4096) : EReal :=
  (∑ k : Fin 4096, X (ix2 r k) * W (ix2 o k)) + b (ix1 o)

/-- The affine map as a whole 8192 × 4096 array: at an index, `affineAt` of the index's two coordinates. -/
def affine (X : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => affineAt X W b (i 0) (i 1)

/-- At an index given by its coordinates the array reads `affineAt` there. -/
theorem affine_ix2 (X : (⟨2, ![8192, 4096]⟩ : Shape).Idx → EReal) (W : (⟨2, ![4096, 4096]⟩ : Shape).Idx → EReal)
    (b : (⟨1, ![4096]⟩ : Shape).Idx → EReal) (r : Fin 8192) (o : Fin 4096) :
    affine X W b (ix2 r o) = affineAt X W b r o := rfl

end Cert.Linear

end
-- ==== Proof.RefSide.lean ====
/-
  The reference program's result is the affine map of its arguments.

  The reference contracts the input and the weight along their second axes in one product, lays the bias out as a
  single row, repeats that row down the 8192 rows, and adds. Read at the index (r, o): the product contributes
  ∑ₖ X(r, k) · W(o, k); the repeated row contributes b(o), whatever r is. That is `affineAt X W b r o`.
-/
import proofs.«150943_j29377576304853_1_alg».proof.Proof.Gen.ReferenceIdeal.Read
import proofs.«150943_j29377576304853_1_alg».proof.Proof.Spec

noncomputable section

open scoped BigOperators

namespace Cert.Linear

open Cert.ReferenceIdeal Cert.ReferenceIdeal.Read Idealize.ShloMosaic Idealize.ShloMosaic.ValueIdx

/-- The reference's last stage, as a function of the three arguments, is the affine map: at (r, o) the contraction
    runs over the shared second axis of row r of the input and row o of the weight, and both broadcasts of the bias
    read entry o. -/
theorem reference_eq (x0 : (⟨S8192x4096, .f32⟩ : BufTy).Contents (Elt Ideal))
    (x1 : (⟨S4096x4096, .f32⟩ : BufTy).Contents (Elt Ideal)) (x2 : (⟨S4096, .f32⟩ : BufTy).Contents (Elt Ideal)) :
    val_main_v3 (F := Ideal) x0 x1 x2 = affine x0 x1 x2 := by
  funext i
  obtain ⟨r, o, rfl⟩ : ∃ (r : Fin 8192) (o : Fin 4096), i = ix2 r o := ⟨i 0, i 1, eq_ix2 i⟩
  rw [val_main_v3_apply, val_main_v0_apply, val_main_v2_apply, val_main_v1_apply]
  have el : ∀ k : Fin 4096, lidx_main_v0 (ix2 r o) k = ix2 r k := fun k =>
    funext fun a => Fin.ext (by match a with | ⟨0, _⟩ => rfl | ⟨1, _⟩ => rfl)
  have er : ∀ k : Fin 4096, ridx_main_v0 (ix2 r o) k = ix2 o k := fun k =>
    funext fun a => Fin.ext (by match a with | ⟨0, _⟩ => rfl | ⟨1, _⟩ => rfl)
  have eb : idx_main_v1 (idx_main_v2 (ix2 r o)) = ix1 o :=
    funext fun a => Fin.ext (by match a with | ⟨0, _⟩ => rfl)
  simp only [el, er, eb]
  rfl

end Cert.Linear

end
-- ==== Proof.Payload.lean ====
/-
  What the kernel body stores at one grid point, read at an index of the output tile.

  The body takes a 1024 × 4096 tile of the (rounded) input, a 512 × 4096 tile of the (rounded) weight and a
  1 × 512 tile of the bias row. It contracts the two matrix tiles along their second axes into a zero accumulator,
  repeats the bias row down the 1024 rows, and adds. At the tile index (p, q) this is
  ∑ₖ x(p, k) · w(q, k) + β(0, q): the zero accumulator is the additive unit, the two shape casts of a tile to its
  own shape do nothing, and the repeated row reads its one row at column q.
-/
import proofs.«150943_j29377576304853_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Linear

open Cert.KernelIdeal Cert.KernelIdeal.Gen Idealize.ShloMosaic Idealize.ShloMosaic.ValueIdx

/-- The tile product's dimension numbers: both operands contracted along axis 1, rows of the left operand and rows
    of the right operand indexing the result. -/
abbrev tileDot : DotDims S1024x4096 S512x4096 S1024x512 := dot_S1024x4096_S512x4096_S1024x512_1_1_0_0_n_n

/-- The left operand's row is the result's row. -/
theorem tile_lhs_row (i : S1024x512.Idx) (q : tileDot.contr.Idx) : (tileDot.lhsIdx i q 0).val = (i 0).val := by
  unfold DotDims.lhsIdx
  rw [dif_neg (show ¬(0 : Fin S1024x4096.rank) ∈ tileDot.lhsBatch by decide),
    dif_pos (show (0 : Fin S1024x4096.rank) ∈ tileDot.lhsNonContracting by decide)]
  rfl

/-- The left operand's column is the contraction coordinate. -/
theorem tile_lhs_col (i : S1024x512.Idx) (q : tileDot.contr.Idx) :
    (tileDot.lhsIdx i q 1).val = (q ⟨0, by decide⟩).val :=
  tileDot.lhsIdx_val_of_single rfl i q

/-- The right operand's row is the result's column. -/
theorem tile_rhs_row (i : S1024x512.Idx) (q : tileDot.contr.Idx) : (tileDot.rhsIdx i q 0).val = (i 1).val := by
  unfold DotDims.rhsIdx
  rw [dif_neg (show ¬(0 : Fin S512x4096.rank) ∈ tileDot.rhsBatch by decide),
    dif_pos (show (0 : Fin S512x4096.rank) ∈ tileDot.rhsNonContracting by decide)]
  rfl

/-- The right operand's column is the contraction coordinate. -/
theorem tile_rhs_col (i : S1024x512.Idx) (q : tileDot.contr.Idx) :
    (tileDot.rhsIdx i q 1).val = (q ⟨0, by decide⟩).val :=
  tileDot.rhsIdx_val_of_single rfl i q

/-- The tile product into a zero accumulator, at (p, q): the inner product of row p of the left tile with row q of
    the right tile. The contraction's index set is identified with `Fin 4096` and the sum re-indexed through that
    bijection. -/
theorem tile_matmul_apply (x : FVec Ideal S1024x4096 .bf16) (w : FVec Ideal S512x4096 .bf16) (p : Fin 1024) (q : Fin 512) :
    matmul tileDot none x w (constant (F := Ideal) S1024x512 .f32 0x00000000#32) (ix2 p q)
      = ∑ k : Fin 4096, x (ix2 p k) * w (ix2 q k) := by
  show FloatOps.matmul tileDot none x w (constant (F := Ideal) S1024x512 .f32 0x00000000#32) (ix2 p q) = _
  rw [Ideal.matmul_constant_zero_apply, ← Equiv.sum_comp (contrEquiv1 tileDot 4096 rfl rfl).symm]
  refine Finset.sum_congr rfl fun k _ => ?_
  have hk := contrEquiv1_symm_val tileDot 4096 rfl rfl k
  have el : tileDot.lhsIdx (ix2 p q) ((contrEquiv1 tileDot 4096 rfl rfl).symm k) = ix2 p k :=
    funext fun a => Fin.ext (by
      match a with
      | ⟨0, _⟩ => exact tile_lhs_row _ _
      | ⟨1, _⟩ => exact (tile_lhs_col _ _).trans hk)
  have er : tileDot.rhsIdx (ix2 p q) ((contrEquiv1 tileDot 4096 rfl rfl).symm k) = ix2 q k :=
    funext fun a => Fin.ext (by
      match a with
      | ⟨0, _⟩ => exact tile_rhs_row _ _
      | ⟨1, _⟩ => exact (tile_rhs_col _ _).trans hk)
  rw [el, er]

/-- The stored tile at (p, q): the inner product of row p of the input tile with row q of the weight tile, plus the
    bias tile's one row at column q. -/
theorem payload_apply (x : Vec Ideal S1024x4096 .bf16) (w : Vec Ideal S512x4096 .bf16) (β : Vec Ideal S1x512 .f32)
    (p : Fin 1024) (q : Fin 512) :
    k0_pay1 (F := Ideal) x w β (ix2 p q) = (∑ k : Fin 4096, x (ix2 p k) * w (ix2 q k)) + β (ix2 (0 : Fin 1) q) := by
  unfold k0_pay1
  show FloatOps.addf (matmul tileDot none (shapeCast S1024x4096 x shapeCasts_S1024x4096_S1024x4096)
      (shapeCast S512x4096 w shapeCasts_S512x4096_S512x4096) (constant (F := Ideal) S1024x512 .f32 0x00000000#32) (ix2 p q))
    (broadcastTo S1024x512 (shapeCast S1x512 β shapeCasts_S1x512_S1x512) broadcasts_S1x512_S1024x512 (ix2 p q)) = _
  rw [shapeCast_self, shapeCast_self, shapeCast_self, tile_matmul_apply, broadcastTo_1b_ab_apply]
  rfl

end Cert.Linear

end
-- ==== Proof.Tiles.lean ====
/-
  The three input tiles of a grid point, as entries of the argument arrays.

  Before the kernel is launched the host rounds the input and the weight to a narrower float format — the identity
  on the extended reals — and lays the bias out as one row of 4096 entries. The grid has 8 × 8 points; at the point
  with block coordinates (I, J) the kernel is handed rows 1024·I … 1024·I + 1023 of the input, rows
  512·J … 512·J + 511 of the weight, and columns 512·J … 512·J + 511 of the bias row. The output tile of the same
  point is the block (I, J) of the result, so the three statements below are written against the OUTPUT window's
  block coordinates.
-/
import proofs.«150943_j29377576304853_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.Linear

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- How the four windows' block coordinates are related at every one of the 64 grid points: the input tile shares the
    output's row block and spans all columns; the weight tile's row block is the output's column block and it spans all
    columns; the bias tile sits in the one row at the output's column block; and both output block coordinates are
    below 8. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- The rounded input, as the region finds it, is the input: rounding is the identity on the extended reals. -/
theorem entry_input (c : Dev nD) (i : S8192x4096.Idx) :
    (V m c main_v0 : S8192x4096.Idx → EReal) i = (m ((c : Thread nD τ).loc main_arg0) : S8192x4096.Idx → EReal) i := by
  have e : @Eq (S8192x4096.Idx → EReal) (V m c main_v0)
      (truncf (F := Ideal) (s := S8192x4096) (φ := .f32) .bf16 (m ((c : Thread nD τ).loc main_arg0)) bitsLt_bf16_f32) := by
    dsimp only [Gen.V, Gen.hostOps0]; after_results
  exact congrFun e i

/-- The rounded weight, as the region finds it, is the weight. -/
theorem entry_weight (c : Dev nD) (i : S4096x4096.Idx) :
    (V m c main_v1 : S4096x4096.Idx → EReal) i = (m ((c : Thread nD τ).loc main_arg1) : S4096x4096.Idx → EReal) i := by
  have e : @Eq (S4096x4096.Idx → EReal) (V m c main_v1)
      (truncf (F := Ideal) (s := S4096x4096) (φ := .f32) .bf16 (m ((c : Thread nD τ).loc main_arg1)) bitsLt_bf16_f32) := by
    dsimp only [Gen.V, Gen.hostOps0]; after_results
  exact congrFun e i

/-- The bias laid out as one row, as the region finds it: column o of the row is entry o of the bias. -/
theorem entry_bias (c : Dev nD) (u : Fin 1) (o : Fin 4096) :
    (V m c main_v2 : S1x4096.Idx → EReal) (ix2 u o) = (m ((c : Thread nD τ).loc main_arg2) : S4096.Idx → EReal) (ix1 o) := by
  have e : @Eq (S1x4096.Idx → EReal) (V m c main_v2)
      (shapeCast (α := EReal) S1x4096 (m ((c : Thread nD τ).loc main_arg2)) shapeCasts_S4096_S1x4096) := by
    dsimp only [Gen.V, Gen.hostOps0]; after_results; rfl
  exact (congrFun e (ix2 u o)).trans (shapeCast_a_1a_apply _ _ u o)

/-- The input tile at a grid point: its entry (p, k) is the input at row (row block) · 1024 + p, column k. -/
theorem input_tile (c : Dev nD) (t : Fin cfg0.N) (p : Fin 1024) (k : Fin 4096) (r : Fin 8192)
    (hr : r.val = win0_3.index t (0 : Fin 2) * 1024 + p.val) :
    (iblk m c 0 t : Vec Ideal S1024x4096 .bf16) (ix2 p k)
      = (m ((c : Thread nD τ).loc main_arg0) : S8192x4096.Idx → EReal) (ix2 r k) := by
  obtain ⟨e0, e1, -⟩ := index_facts t
  unfold iblk
  rw [View.read_apply]
  show (V m c main_v0 : S8192x4096.Idx → EReal) _ = _
  rw [entry_input]
  refine congrArg _ (funext fun a => Fin.ext ?_)
  match a with
  | ⟨0, _⟩ => show win0_0.index t (0 : Fin 2) * 1024 + 1 * p.val = r.val; omega
  | ⟨1, _⟩ => show win0_0.index t (1 : Fin 2) * 4096 + 1 * k.val = k.val; omega

/-- The weight tile at a grid point: its entry (q, k) is the weight at row (column block) · 512 + q, column k. -/
theorem weight_tile (c : Dev nD) (t : Fin cfg0.N) (q : Fin 512) (k : Fin 4096) (o : Fin 4096)
    (ho : o.val = win0_3.index t (1 : Fin 2) * 512 + q.val) :
    (iblk m c 1 t : Vec Ideal S512x4096 .bf16) (ix2 q k)
      = (m ((c : Thread nD τ).loc main_arg1) : S4096x4096.Idx → EReal) (ix2 o k) := by
  obtain ⟨-, -, e0, e1, -⟩ := index_facts t
  unfold iblk
  rw [View.read_apply]
  show (V m c main_v1 : S4096x4096.Idx → EReal) _ = _
  rw [entry_weight]
  refine congrArg _ (funext fun a => Fin.ext ?_)
  match a with
  | ⟨0, _⟩ => show win0_1.index t (0 : Fin 2) * 512 + 1 * q.val = o.val; omega
  | ⟨1, _⟩ => show win0_1.index t (1 : Fin 2) * 4096 + 1 * k.val = k.val; omega

/-- The bias tile at a grid point: its one row at column q is the bias at (column block) · 512 + q. -/
theorem bias_tile (c : Dev nD) (t : Fin cfg0.N) (q : Fin 512) (o : Fin 4096)
    (ho : o.val = win0_3.index t (1 : Fin 2) * 512 + q.val) :
    (iblk m c 2 t : Vec Ideal S1x512 .f32) (ix2 (0 : Fin 1) q)
      = (m ((c : Thread nD τ).loc main_arg2) : S4096.Idx → EReal) (ix1 o) := by
  obtain ⟨-, -, -, -, e0, e1, -⟩ := index_facts t
  unfold iblk
  rw [View.read_apply]
  show (V m c main_v2 : S1x4096.Idx → EReal) _ = _
  rw [← entry_bias m c (0 : Fin 1) o]
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = o.val; omega

end Cert.Linear

end
-- ==== Proof.Blocks.lean ====
/-
  From the 64 output tiles to the whole result array.

  Grid point t writes back one 1024 × 512 tile, the block of the result array at the point's block coordinates (I, J).
  Its entry (p, q) is ∑ₖ x(p, k) · w(q, k) + β(0, q) of the point's three input tiles, and those tiles are rows
  1024·I + p of the input, rows 512·J + q of the weight and entry 512·J + q of the bias: so the entry is the affine map
  at the array index (1024·I + p, 512·J + q), which is exactly where the tile's entry (p, q) lands. The 8 × 8 blocks
  tile the 8192 × 4096 array — the index (r, o) lies in the block (r / 1024, o / 512) — so after the run the array is
  the affine map everywhere.
-/
import proofs.«150943_j29377576304853_1_alg».proof.Proof.Gen.KernelIdeal.Value
import proofs.«150943_j29377576304853_1_alg».proof.Proof.Spec
import proofs.«150943_j29377576304853_1_alg».proof.Proof.Payload
import proofs.«150943_j29377576304853_1_alg».proof.Proof.Tiles

noncomputable section

namespace Cert.Linear

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its one store start at the tile's origin. -/
theorem origin : (![0, 0] : Fin 2 → Nat) = fun _ => 0 := funext fun a => by fin_cases a <;> rfl

/-- The affine map of the three argument arrays as launched, on core `c`. -/
abbrev result (c : Dev nD) : S8192x4096.Idx → EReal :=
  affine (m ((c : Thread nD τ).loc main_arg0)) (m ((c : Thread nD τ).loc main_arg1)) (m ((c : Thread nD τ).loc main_arg2))

/-- Every pair of block coordinates below 8 is some grid point's. -/
theorem index_onto : ∀ (I : Fin 8) (J : Fin 8), ∃ t : Fin cfg0.N, win0_3.index t = ![I.val, J.val] :=
  (by decide +kernel : ∀ (I : Fin 8) (J : Fin 8), ∃ t : Fin grid0.N, win0_3.index t = ![I.val, J.val])

/-- What grid point `t` writes back is its block of the affine map. -/
theorem tile_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero origin]
  simp only [View.ld_unit_zero (S := S1024x4096) origin, View.ld_unit_zero (S := S512x4096) origin,
    View.ld_unit_zero (S := S1x512) origin]
  obtain ⟨-, -, -, -, -, -, hI, hJ⟩ := index_facts t
  show (k0_pay1 (F := Ideal) (iblk m c 0 t) (iblk m c 1 t) (iblk m c 2 t) : S1024x512.Idx → EReal)
    = fun j => result m c (((cfg0.win 3).blk t).view.emb j)
  funext j
  obtain ⟨p, q, rfl⟩ : ∃ (p : Fin 1024) (q : Fin 512), j = ix2 p q := ⟨j 0, j 1, eq_ix2 j⟩
  have hp : p.val < 1024 := p.isLt
  have hq : q.val < 512 := q.isLt
  have hr : win0_3.index t (0 : Fin 2) * 1024 + p.val < 8192 := by omega
  have ho : win0_3.index t (1 : Fin 2) * 512 + q.val < 4096 := by omega
  have hemb : ((cfg0.win 3).blk t).view.emb (ix2 p q)
      = ix2 (⟨win0_3.index t (0 : Fin 2) * 1024 + p.val, hr⟩ : Fin 8192)
          (⟨win0_3.index t (1 : Fin 2) * 512 + q.val, ho⟩ : Fin 4096) :=
    funext fun a => Fin.ext (by
      match a with
      | ⟨0, _⟩ => show win0_3.index t (0 : Fin 2) * 1024 + 1 * p.val = win0_3.index t (0 : Fin 2) * 1024 + p.val; omega
      | ⟨1, _⟩ => show win0_3.index t (1 : Fin 2) * 512 + 1 * q.val = win0_3.index t (1 : Fin 2) * 512 + q.val; omega)
  rw [hemb, payload_apply]
  show _ = affineAt _ _ _ _ _
  unfold affineAt
  rw [bias_tile m c t q ⟨_, ho⟩ rfl]
  refine congrArg (· + _) (Finset.sum_congr rfl fun k _ => ?_)
  rw [input_tile m c t p k ⟨_, hr⟩ rfl, weight_tile m c t q k ⟨_, ho⟩ rfl]

/-- An index of the array is in point `t`'s block iff each coordinate is in the block's range on its axis. -/
theorem mem_tile (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v3).slice (win0_3.rect t)).set ↔ _
  rw [View.set_slice_whole, Rect.mem_set_unit]
  exact Iff.rfl

/-- The blocks tile the array: the index (r, o) is in the block of the point with block coordinates
    (r / 1024, o / 512). -/
theorem tiles_cover (i : S8192x4096.Idx) :
    ∃ t : Fin cfg0.N, (cfg0.win 3).flush t = true ∧ i ∈ ((cfg0.win 3).blk t).view.set := by
  have hr : (i 0).val < 8192 := (i 0).isLt
  have ho : (i 1).val < 4096 := (i 1).isLt
  obtain ⟨t, ht⟩ := index_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_tile]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- The result array after the run is the affine map of the arguments. -/
theorem final (c : Dev nD) : (dats m 0 c).arrAt 3 cfg0.N = result m c :=
  (dats m 0 c).arrAt_eq_of_cover 3 (result m c) (fun t _ => tile_eq m c t) tiles_cover

/-- The kernel's run, read: every weakly fair execution ends with the result array at the affine map of the argument
    arrays as launched, and the arguments unchanged. -/
theorem kernel_run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Linear

end
-- ==== Proof.lean ====
/-
  A dense linear layer, out = input · weightᵀ + bias, computed tile by tile, against one whole product.

  The kernel cuts the 8192 × 4096 result into 8 × 8 tiles of 1024 × 512. For the tile at block coordinates (I, J) it
  takes rows 1024·I … of the input and rows 512·J … of the weight, each with all 4096 columns, contracts them along
  the column axis into a zero accumulator, and adds the bias entries 512·J … repeated down the rows. The reference
  contracts the whole input with the whole weight along the same axis and adds the bias repeated down all rows.

  Over the extended reals both are the one array
      out(r, o) = ∑ₖ input(r, k) · weight(o, k) + bias(o):
  the rounding of the operands to a narrower float format before the kernel's product is the identity there, a zero
  accumulator is the additive unit, and a tile's entry (p, q) is the array's entry (1024·I + p, 512·J + q) because the
  contraction runs over ALL columns inside every tile — no sum is split, reordered or distributed, so no finiteness
  of the inputs is used. The modules: `Spec` (the array above), `RefSide` (the reference computes it), `Payload`
  (a tile's entry), `Tiles` (the input tiles as entries of the arguments), `Blocks` (the tiles cover the array);
  here the five claims are assembled. No operation of the kernel was rewritten by the idealization, so the
  preservation claim has nothing to state.
-/
import proofs.«150943_j29377576304853_1_alg».proof.Defs
import proofs.«150943_j29377576304853_1_alg».proof.Proof.Gen.Kernel
import proofs.«150943_j29377576304853_1_alg».proof.Proof.Gen.Kernel.Skeleton
import proofs.«150943_j29377576304853_1_alg».proof.Proof.Gen.Kernel.Launch
import proofs.«150943_j29377576304853_1_alg».proof.Proof.Gen.Kernel.Points
import proofs.«150943_j29377576304853_1_alg».proof.Proof.Gen.Kernel.Frame
import proofs.«150943_j29377576304853_1_alg».proof.Proof.Gen.KernelIdeal
import proofs.«150943_j29377576304853_1_alg».proof.Proof.Gen.KernelIdeal.Skeleton
import proofs.«150943_j29377576304853_1_alg».proof.Proof.Gen.KernelIdeal.Launch
import proofs.«150943_j29377576304853_1_alg».proof.Proof.Gen.KernelIdeal.Points
import proofs.«150943_j29377576304853_1_alg».proof.Proof.Gen.KernelIdeal.Frame
import proofs.«150943_j29377576304853_1_alg».proof.Proof.Gen.KernelIdeal.Value
import proofs.«150943_j29377576304853_1_alg».proof.Proof.Gen.ReferenceIdeal
import proofs.«150943_j29377576304853_1_alg».proof.Proof.Gen.ReferenceIdeal.Run
import proofs.«150943_j29377576304853_1_alg».proof.Proof.Gen.ReferenceIdeal.Read
import proofs.«150943_j29377576304853_1_alg».proof.Proof.Gen.Pre_finite_inputs
import proofs.«150943_j29377576304853_1_alg».proof.Proof.RefSide
import proofs.«150943_j29377576304853_1_alg».proof.Proof.Blocks
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is four host operations in a row: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments, the kernel's result array ends at the affine map of its arguments
    (`Linear.kernel_run`) and the reference's at its four operations' term, which is the same affine map
    (`Linear.reference_eq`) of the same arguments. -/
theorem algebraic : Cert.algebraic_KernelIdeal_ReferenceIdeal := by
  intro m ρ m' ρ' _ hagree
  refine ⟨fun c => Cert.Linear.result m c, Cert.Linear.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Linear.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
